-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x17x3 : Shape := ⟨3, ![524288, 17, 3]⟩
abbrev S_ : Shape := ⟨0, ![]⟩

class Facts : Prop where
  bcast_S_S524288x17x3 : S_.BroadcastsInDim S524288x17x3 (![] : Fin 0 → Fin S524288x17x3.rank)
  reducesTo_S524288x17x3_S_d0_1_2 : S524288x17x3.ReducesTo [0, 1, 2] S_
  h_S_ : 0 < S_.numel

variable [Facts]

def fn {F : FTy → Type} [FloatOps F] (main_arg0 : FVec F S524288x17x3 .f32) : IVec S_ 1 :=
  let main_v0 : FVec F S524288x17x3 .f32 := Host.absf main_arg0
  let main_cst : FVec F S_ .f32 := constant S_ .f32 0x7F800000#32
  let main_v1 : FVec F S524288x17x3 .f32 := broadcastInDim S524288x17x3 ![] bcast_S_S524288x17x3 main_cst
  let main_v2 : IVec S524288x17x3 1 := cmpf .olt main_v0 main_v1
  let main_c : IVec S_ 1 := constantI S_ 1 1#1
  let main_v3 : IVec S_ 1 := (fun x v => Host.reduce IntOp.andi x v reducesTo_S524288x17x3_S_d0_1_2 h_S_) main_v2 main_c
  main_v3
-- ==== Kernel.lean ====
abbrev S524288x17x3 : Shape := ⟨3, ![524288, 17, 3]⟩
abbrev S524288x17x2 : Shape := ⟨3, ![524288, 17, 2]⟩
abbrev S524288x17 : Shape := ⟨2, ![524288, 17]⟩
abbrev S16384x17x3 : Shape := ⟨3, ![16384, 17, 3]⟩
abbrev S16384x17x2 : Shape := ⟨3, ![16384, 17, 2]⟩
abbrev S16384x17 : Shape := ⟨2, ![16384, 17]⟩
abbrev S16384x17x1 : Shape := ⟨3, ![16384, 17, 1]⟩
abbrev S8912896 : Shape := ⟨1, ![8912896]⟩
abbrev S8912896x3 : Shape := ⟨2, ![8912896, 3]⟩

abbrev nBuf : Space → Nat
  | .hbm => 6
  | .vmem => 8
  | .smem => 0
  | _ => 0

abbrev bufTy : (tb : Table) → Fin (tcTables nBuf tb) → BufTy
  | .hbm, ⟨0, _⟩ => ⟨S524288x17x3, .f32⟩
  | .hbm, ⟨1, _⟩ => ⟨S524288x17x2, .f32⟩
  | .hbm, ⟨2, _⟩ => ⟨S524288x17, .f32⟩
  | .hbm, ⟨3, _⟩ => ⟨S524288x17x3, .i32⟩
  | .hbm, ⟨4, _⟩ => ⟨S8912896, .f32⟩
  | .hbm, ⟨5, _⟩ => ⟨S8912896x3, .i32⟩
  | .local _ .vmem, ⟨0, _⟩ => ⟨S16384x17x3, .f32⟩
  | .local _ .vmem, ⟨1, _⟩ => ⟨S16384x17x3, .f32⟩
  | .local _ .vmem, ⟨2, _⟩ => ⟨S16384x17x2, .f32⟩
  | .local _ .vmem, ⟨3, _⟩ => ⟨S16384x17x2, .f32⟩
  | .local _ .vmem, ⟨4, _⟩ => ⟨S16384x17, .f32⟩
  | .local _ .vmem, ⟨5, _⟩ => ⟨S16384x17, .f32⟩
  | .local _ .vmem, ⟨6, _⟩ => ⟨S16384x17x3, .i32⟩
  | .local _ .vmem, ⟨7, _⟩ => ⟨S16384x17x3, .i32⟩
  | _, _ => ⟨S524288x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x17x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x17x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x17x3 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16384x17x3_S16384x17x3_0_0_0 : ∀ a, (![0, 0, 0] : Fin 3 → Nat) a + S16384x17x3.size a ≤ S16384x17x3.size a
  h_S16384x17x3 : 0 < S16384x17x3.numel
  slices_S16384x17x3_o0_0_0_S16384x17x2 : S16384x17x3.Slices ![0, 0, 0] S16384x17x2
  slices_S16384x17x3_o0_0_2_S16384x17x1 : S16384x17x3.Slices ![0, 0, 2] S16384x17x1
  shapeCasts_S16384x17x1_S16384x17 : S16384x17x1.ShapeCasts S16384x17
  iota_S16384x17_d0_w32 : S16384x17.Iotas .tc 32 [0]
  shapeCasts_S16384x17_S16384x17x1 : S16384x17.ShapeCasts S16384x17x1
  concatenates_S16384x17x1_S16384x17x2_S16384x17x3_d2 : Shape.Concatenates [S16384x17x1, S16384x17x2] S16384x17x3 2
  inb_S16384x17x2_S16384x17x2_0_0_0 : ∀ a, (![0, 0, 0] : Fin 3 → Nat) a + S16384x17x2.size a ≤ S16384x17x2.size a
  h_S16384x17x2 : 0 < S16384x17x2.numel
  inb_S16384x17_S16384x17_0_0 : ∀ a, (![0, 0] : Fin 2 → Nat) a + S16384x17.size a ≤ S16384x17.size a
  h_S16384x17 : 0 < S16384x17.numel
  shapeCasts_S524288x17_S8912896 : S524288x17.ShapeCasts S8912896
  shapeCasts_S524288x17x3_S8912896x3 : S524288x17x3.ShapeCasts S8912896x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x17x3.size a ≤ S524288x17x3.size a
  hwx0_0 : ∀ i : grid0.Coords, EltTy.bits .f32 = 32 ∨ (Rect.block (s := S524288x17x3) S16384x17x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x17x2.size a ≤ S524288x17x2.size a
  hwx0_1 : ∀ i : grid0.Coords, EltTy.bits .f32 = 32 ∨ (Rect.block (s := S524288x17x2) S16384x17x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x17.size a ≤ S524288x17.size a
  hwx0_2 : ∀ i : grid0.Coords, EltTy.bits .f32 = 32 ∨ (Rect.block (s := S524288x17) S16384x17.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x17x3.size a ≤ S524288x17x3.size a
  hwx0_3 : ∀ i : grid0.Coords, EltTy.bits .i32 = 32 ∨ (Rect.block (s := S524288x17x3) S16384x17x3.size (cc0_transform_3 i) (hinb0_3 i)).WholeWords (EltTy.packing .i32)

variable [Facts₀]

abbrev win0_0 : Pipeline.Window sig grid0 :=
  Pipeline.Window.ofSpec (Memref.whole main_arg0) S16384x17x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S16384x17x2.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16384x17.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S16384x17x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x17x3 : Shape := ⟨3, ![524288, 17, 3]⟩
abbrev S524288x17x2 : Shape := ⟨3, ![524288, 17, 2]⟩
abbrev S_ : Shape := ⟨0, ![]⟩
abbrev S524288x17x1 : Shape := ⟨3, ![524288, 17, 1]⟩
abbrev S524288x17 : Shape := ⟨2, ![524288, 17]⟩
abbrev S8912896 : Shape := ⟨1, ![8912896]⟩
abbrev S524288 : Shape := ⟨1, ![524288]⟩
abbrev S8912896x1 : Shape := ⟨2, ![8912896, 1]⟩
abbrev S8912896x2 : Shape := ⟨2, ![8912896, 2]⟩
abbrev S8912896x3 : Shape := ⟨2, ![8912896, 3]⟩

abbrev nBuf : Space → Nat
  | .hbm => 34
  | .vmem => 0
  | .smem => 0
  | _ => 0

abbrev bufTy : (tb : Table) → Fin (tcTables nBuf tb) → BufTy
  | .hbm, ⟨0, _⟩ => ⟨S524288x17x3, .f32⟩
  | .hbm, ⟨1, _⟩ => ⟨S524288x17x2, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S524288x17x2, .f32⟩
  | .hbm, ⟨6, _⟩ => ⟨S524288x17x2, .f32⟩
  | .hbm, ⟨7, _⟩ => ⟨S_, .f32⟩
  | .hbm, ⟨8, _⟩ => ⟨S524288x17x2, .f32⟩
  | .hbm, ⟨9, _⟩ => ⟨S524288x17x2, .f32⟩
  | .hbm, ⟨10, _⟩ => ⟨S_, .f32⟩
  | .hbm, ⟨11, _⟩ => ⟨S524288x17x2, .f32⟩
  | .hbm, ⟨12, _⟩ => ⟨S524288x17x2, .f32⟩
  | .hbm, ⟨13, _⟩ => ⟨S_, .f32⟩
  | .hbm, ⟨14, _⟩ => ⟨S524288x17x2, .f32⟩
  | .hbm, ⟨15, _⟩ => ⟨S524288x17x2, .f32⟩
  | .hbm, ⟨16, _⟩ => ⟨S524288x17x2, .i32⟩
  | .hbm, ⟨17, _⟩ => ⟨S524288x17x1, .f32⟩
  | .hbm, ⟨18, _⟩ => ⟨S524288x17, .f32⟩
  | .hbm, ⟨19, _⟩ => ⟨S8912896, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8912896, .f32⟩
  | .hbm, ⟨24, _⟩ => ⟨S8912896, .f32⟩
  | .hbm, ⟨25, _⟩ => ⟨S_, .f32⟩
  | .hbm, ⟨26, _⟩ => ⟨S8912896, .f32⟩
  | .hbm, ⟨27, _⟩ => ⟨S8912896, .f32⟩
  | .hbm, ⟨28, _⟩ => ⟨S524288, .i32⟩
  | .hbm, ⟨29, _⟩ => ⟨S524288x17, .i32⟩
  | .hbm, ⟨30, _⟩ => ⟨S8912896, .i32⟩
  | .hbm, ⟨31, _⟩ => ⟨S8912896x1, .i32⟩
  | .hbm, ⟨32, _⟩ => ⟨S8912896x2, .i32⟩
  | .hbm, ⟨33, _⟩ => ⟨S8912896x3, .i32⟩
  | _, _ => ⟨S524288x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  slices_S524288x17x3_S524288x17x2_0_0_0 : S524288x17x3.Slices ![0, 0, 0] S524288x17x2
  bcast_S_S524288x17x2 : S_.BroadcastsInDim S524288x17x2 (![] : Fin 0 → Fin S524288x17x2.rank)
  slices_S524288x17x3_S524288x17x1_0_0_2 : S524288x17x3.Slices ![0, 0, 2] S524288x17x1
  shapeCasts_S524288x17x1_S524288x17 : S524288x17x1.ShapeCasts S524288x17
  shapeCasts_S524288x17_S8912896 : S524288x17.ShapeCasts S8912896
  bcast_S_S8912896 : S_.BroadcastsInDim S8912896 (![] : Fin 0 → Fin S8912896.rank)
  bcast_S524288_S524288x17_0 : S524288.BroadcastsInDim S524288x17 (![0] : Fin 1 → Fin S524288x17.rank)
  bcast_S8912896_S8912896x1_0 : S8912896.BroadcastsInDim S8912896x1 (![0] : Fin 1 → Fin S8912896x1.rank)
  shapeCasts_S524288x17x2_S8912896x2 : S524288x17x2.ShapeCasts S8912896x2
  concatenates_S8912896x1_S8912896x2_S8912896x3_d1 : Shape.Concatenates [S8912896x1, S8912896x2] S8912896x3 1

variable [Facts₀]

class Facts : Prop extends Facts₀ where

variable [Facts]
-- ==== Proof.Quantize.lean ====
/-
  What the three results hold, as functions of the keypoint array.

  The input is an array `x` of 524288 batches of 17 keypoints with three coordinates each: two planar ones and a depth.
  Over the extended reals, where every float operation is the exact one:
    * each planar coordinate is clamped to `[0, 504]` (`clipXY`), and the depth to `[0, 3.15…]` (`clipZ`, the upper bound
      being the single-precision word both programs carry);
    * each clamped planar coordinate is turned into a heat-map cell: minus the origin `0`, divided by the cell width `8`,
      truncated toward zero to a 32-bit integer (`cell`);
    * the index triple of a (batch, keypoint) pair is (batch number, cell of the first coordinate, cell of the second).
  The results list the pairs in row-major order, pair `p` being keypoint `p % 17` of batch `p / 17`.
-/
import Idealize.ShloMosaic.PureOps.Ideal
import Idealize.ShloMosaic.Lib.ValueIdx

noncomputable section

namespace Cert.Quantize

open Idealize.ShloMosaic Idealize.ShloMosaic.ValueIdx

/-- The keypoint array. -/
abbrev Pts : Type := (⟨3, ![524288, 17, 3]⟩ : Shape).Idx → Ideal .f32

/-- A planar coordinate clamped to `[0, 504]`: first from below, then from above. -/
def clipXY (v : Ideal .f32) : Ideal .f32 :=
  min (Ideal.ofBits .f32 0x43FC0000#32) (max (Ideal.ofBits .f32 0x00000000#32) v)

/-- A depth clamped to `[0, 3.15…]`: first from below, then from above. -/
def clipZ (v : Ideal .f32) : Ideal .f32 :=
  min (Ideal.ofBits .f32 0x4049999A#32) (max (Ideal.ofBits .f32 0x00000000#32) v)

/-- The heat-map cell of a planar coordinate: the clamped coordinate less the origin, over the cell width, truncated. -/
def cell (v : Ideal .f32) : BitVec 32 :=
  Ideal.fptosi 32 (Ideal.div (clipXY v - Ideal.ofBits .f32 0x00000000#32) (Ideal.ofBits .f32 0x41000000#32))

/-- Planar coordinate `d` of keypoint `k` of batch `b`, clamped. -/
def xyAt (x : Pts) (b : Fin 524288) (k : Fin 17) (d : Fin 2) : Ideal .f32 :=
  clipXY (x (ix3 b k (⟨d.val, by have := d.isLt; omega⟩ : Fin 3)))

/-- The depth of keypoint `k` of batch `b`, clamped. -/
def zAt (x : Pts) (b : Fin 524288) (k : Fin 17) : Ideal .f32 :=
  clipZ (x (ix3 b k (⟨2, by omega⟩ : Fin 3)))

/-- Entry `d` of the index triple of keypoint `k` of batch `b`: the batch number, then the two cells. -/
def idxAt (x : Pts) (b : Fin 524288) (k : Fin 17) (d : Fin 3) : BitVec 32 :=
  if d.val = 0 then BitVec.ofNat 32 b.val
  else cell (x (ix3 b k (⟨d.val - 1, by have := d.isLt; omega⟩ : Fin 3)))

/-- The first entry of a triple is the batch number. -/
theorem idxAt_batch (x : Pts) (b : Fin 524288) (k : Fin 17) (d : Fin 3) (h : d.val = 0) :
    idxAt x b k d = BitVec.ofNat 32 b.val := by
  unfold idxAt
  rw [if_pos h]

/-- The later entries of a triple are the cells of the two planar coordinates. -/
theorem idxAt_cell (x : Pts) (b : Fin 524288) (k : Fin 17) (d : Fin 3) (h : d.val ≠ 0) :
    idxAt x b k d = cell (x (ix3 b k (⟨d.val - 1, by have := d.isLt; omega⟩ : Fin 3))) := by
  unfold idxAt
  rw [if_neg h]

/-! ## The arrays, batch by keypoint -/

/-- The clamped planar coordinates (the first result). -/
def xy (x : Pts) : (⟨3, ![524288, 17, 2]⟩ : Shape).Idx → Ideal .f32 :=
  fun j => xyAt x ⟨(j 0).val, (j 0).isLt⟩ ⟨(j 1).val, (j 1).isLt⟩ ⟨(j 2).val, (j 2).isLt⟩

/-- The clamped depths, batch by keypoint. -/
def zGrid (x : Pts) : (⟨2, ![524288, 17]⟩ : Shape).Idx → Ideal .f32 :=
  fun j => zAt x ⟨(j 0).val, (j 0).isLt⟩ ⟨(j 1).val, (j 1).isLt⟩

/-- The index triples, batch by keypoint. -/
def idxGrid (x : Pts) : (⟨3, ![524288, 17, 3]⟩ : Shape).Idx → BitVec 32 :=
  fun j => idxAt x ⟨(j 0).val, (j 0).isLt⟩ ⟨(j 1).val, (j 1).isLt⟩ ⟨(j 2).val, (j 2).isLt⟩

/-! ## The arrays, pair by pair in row-major order -/

/-- The clamped depths, one per pair (the second result). -/
def zFlat (x : Pts) : (⟨1, ![8912896]⟩ : Shape).Idx → Ideal .f32 :=
  fun i => zAt x ⟨(i 0).val / 17, by have h : (i 0).val < 8912896 := (i 0).isLt; omega⟩
    ⟨(i 0).val % 17, Nat.mod_lt _ (by omega)⟩

/-- The index triples, one per pair (the third result). -/
def idxFlat (x : Pts) : (⟨2, ![8912896, 3]⟩ : Shape).Idx → BitVec 32 :=
  fun i => idxAt x ⟨(i 0).val / 17, by have h : (i 0).val < 8912896 := (i 0).isLt; omega⟩
    ⟨(i 0).val % 17, Nat.mod_lt _ (by omega)⟩ ⟨(i 1).val, (i 1).isLt⟩

end Cert.Quantize

end
-- ==== Proof.BodyAtIndex.lean ====
/-
  The three values the kernel body stores, read at an index of the block.

  The body loads its [16384, 17, 3] block `x0` of keypoints once. At row `r`, keypoint `k`:
    * the planar store holds, at coordinate `d`, the clamp of `x0 (r, k, d)`;
    * the depth store holds the clamp of `x0 (r, k, 2)`;
    * the index store is a concatenation along the last axis of a one-column piece and a two-column piece: column 0 is
      the row's number inside the block plus 16384 times the grid coordinate — the batch number, the blocks being 16384
      batches tall — and column `d + 1` is the heat-map cell of `x0 (r, k, d)`.
  Every lemma is stated for an arbitrary block and literal coordinates.
-/
import proofs.«179554_j80831284510871_1_alg».proof.Proof.Gen.KernelIdeal.Skeleton
import proofs.«179554_j80831284510871_1_alg».proof.Proof.Quantize
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Quantize

/-- The planar slice of the block at `(r, k, d)` is the block at `(r, k, d)`. -/
theorem planar_slice (x0 : Vec Ideal S16384x17x3 .f32) (r : Fin 16384) (k : Fin 17) (d : Fin 2) :
    extractStridedSlice S16384x17x2 ![0, 0, 0] x0 slices_S16384x17x3_o0_0_0_S16384x17x2 (ix3 r k d)
      = x0 (ix3 r k (⟨d.val, by have := d.isLt; omega⟩ : Fin 3)) :=
  extractStridedSlice_apply ![0, 0, 0] x0 _ (ix3 r k d) _ (fun a => match a with
    | ⟨0, _⟩ => by show r.val = 0 + r.val; omega
    | ⟨1, _⟩ => by show k.val = 0 + k.val; omega
    | ⟨2, _⟩ => by show d.val = 0 + d.val; omega)

/-- The planar store at `(r, k, d)`: the clamp of the block's planar coordinate. -/
theorem stored_xy (x0 : Vec Ideal S16384x17x3 .f32) (r : Fin 16384) (k : Fin 17) (d : Fin 2) :
    k0_pay1 (F := Ideal) x0 (ix3 r k d) = clipXY (x0 (ix3 r k (⟨d.val, by have := d.isLt; omega⟩ : Fin 3))) := by
  unfold k0_pay1
  exact congrArg clipXY (planar_slice x0 r k d)

/-- The depth column of the block, with its unit axis dropped, at `(r, k)` is the block at `(r, k, 2)`. -/
theorem depth_slice (x0 : Vec Ideal S16384x17x3 .f32) (r : Fin 16384) (k : Fin 17) :
    shapeCast S16384x17 (extractStridedSlice S16384x17x1 ![0, 0, 2] x0 slices_S16384x17x3_o0_0_2_S16384x17x1)
        shapeCasts_S16384x17x1_S16384x17 (ix2 r k)
      = x0 (ix3 r k (⟨2, by omega⟩ : Fin 3)) :=
  (shapeCast_apply _ _ (ix2 r k) (ix3 r k (⟨0, Nat.one_pos⟩ : Fin 1)) (by
      rw [Shape.rowMajor_val_three, Shape.rowMajor_val_two]
      show (r.val * 17 + k.val) * 1 + 0 = r.val * 17 + k.val
      omega)).trans
    (extractStridedSlice_apply ![0, 0, 2] x0 _ (ix3 r k (⟨0, Nat.one_pos⟩ : Fin 1)) _ (fun a => match a with
      | ⟨0, _⟩ => by show r.val = 0 + r.val; omega
      | ⟨1, _⟩ => by show k.val = 0 + k.val; omega
      | ⟨2, _⟩ => by show 2 = 2 + 0; rfl))

/-- The depth store at `(r, k)`: the clamp of the block's depth. -/
theorem stored_z (x0 : Vec Ideal S16384x17x3 .f32) (r : Fin 16384) (k : Fin 17) :
    k0_pay2 (F := Ideal) x0 (ix2 r k) = clipZ (x0 (ix3 r k (⟨2, by omega⟩ : Fin 3))) := by
  unfold k0_pay2
  exact congrArg clipZ (depth_slice x0 r k)

/-- Row `r` of block `g` of 16384 rows is row `g · 16384 + r`, in 32-bit arithmetic as over the naturals. -/
theorem row_number (g r : Nat) :
    IntOp.addi (BitVec.ofNat 32 r) (Scalar.muli (BitVec.ofNat 32 g) 16384#32) = BitVec.ofNat 32 (g * 16384 + r) := by
  show BitVec.ofNat 32 r + BitVec.ofNat 32 g * BitVec.ofNat 32 16384 = _
  rw [← BitVec.ofNat_mul, ← BitVec.ofNat_add, Nat.add_comm]

/-- Column 0 of the index store at `(r, k)`: the batch number. -/
theorem stored_batch (i : grid0.Coords) (x0 : Vec Ideal S16384x17x3 .f32) (r : Fin 16384) (k : Fin 17) :
    k0_pay3 (F := Ideal) i x0 (ix3 r k (⟨0, by omega⟩ : Fin 3)) = BitVec.ofNat 32 ((i 0).val * 16384 + r.val) := by
  unfold k0_pay3
  dsimp only
  refine (concatenate_pair_apply_left (t := S16384x17x3) (s₁ := S16384x17x1) (s₂ := S16384x17x2) (2 : Fin 3) _ _ _ (ix3 r k (⟨0, by omega⟩ : Fin 3)) rfl
    (ix3 r k (⟨0, Nat.one_pos⟩ : Fin 1)) (fun b => match b with
      | ⟨0, _⟩ => rfl
      | ⟨1, _⟩ => rfl
      | ⟨2, _⟩ => rfl)).trans ?_
  refine (shapeCast_apply _ _ (ix3 r k (⟨0, Nat.one_pos⟩ : Fin 1)) (ix2 r k) (by
      rw [Shape.rowMajor_val_three, Shape.rowMajor_val_two]
      show r.val * 17 + k.val = (r.val * 17 + k.val) * 1 + 0
      omega)).trans ?_
  show IntOp.addi (iota .tc S16384x17 32 [0] iota_S16384x17_d0_w32 (ix2 r k)) (Scalar.muli (BitVec.ofNat 32 (i 0).val) 16384#32) = _
  rw [iota_single_apply]
  exact row_number (i 0).val r.val

/-- Column `d + 1` of the index store at `(r, k)`: the cell of the block's planar coordinate `d`. -/
theorem stored_cell (i : grid0.Coords) (x0 : Vec Ideal S16384x17x3 .f32) (r : Fin 16384) (k : Fin 17) (d : Fin 2) :
    k0_pay3 (F := Ideal) i x0 (ix3 r k (⟨d.val + 1, by have := d.isLt; omega⟩ : Fin 3))
      = cell (x0 (ix3 r k (⟨d.val, by have := d.isLt; omega⟩ : Fin 3))) := by
  unfold k0_pay3
  dsimp only
  refine (concatenate_pair_apply_right (t := S16384x17x3) (s₁ := S16384x17x1) (s₂ := S16384x17x2) (2 : Fin 3) _ _ _ (ix3 r k (⟨d.val + 1, by have := d.isLt; omega⟩ : Fin 3)) rfl rfl
    (ix3 r k d) (fun b hb => match b, hb with
      | ⟨0, _⟩, _ => rfl
      | ⟨1, _⟩, _ => rfl
      | ⟨2, _⟩, hb => (hb (Fin.ext rfl)).elim) (by show d.val + 1 = d.val + 1; rfl)).trans ?_
  show Ideal.fptosi 32 (Ideal.div (k0_pay1 (F := Ideal) x0 (ix3 r k d) - Ideal.ofBits .f32 0x00000000#32) (Ideal.ofBits .f32 0x41000000#32)) = _
  rw [stored_xy]
  rfl

end Cert.KernelIdeal.Body

end
-- ==== Proof.BlocksToArrays.lean ====
/-
  The kernel's three result arrays after the run, as the functions of `Quantize` of the keypoint array.

  The grid has 32 points; at point `t` every window's block is block `t` along the batch axis (16384 batches) and whole along
  the others, so row `r` of a block at point `t` is batch `t · 16384 + r`. What a point writes back through each output
  window is therefore the corresponding rows of one whole-array function: the clamped planar coordinates, the clamped
  depths, and the index triples — whose batch-number column is the row's number inside the block plus 16384 times the
  grid coordinate, the batch number itself. The 32 blocks cover each output array (batch `b` lies in block `b / 16384`).
  After the region two reshapes flatten the depths and the triples to one entry per (batch, keypoint) pair in row-major
  order: pair `p` is keypoint `p % 17` of batch `p / 17`.
-/
import proofs.«179554_j80831284510871_1_alg».proof.Proof.KernelIdealFrame
import proofs.«179554_j80831284510871_1_alg».proof.Proof.BodyAtIndex
import proofs.«179554_j80831284510871_1_alg».proof.Proof.Quantize
import Idealize.ShloMosaic.Lib.Pipeline.Value
import Idealize.ShloMosaic.Lib.StableHlo.Run
import Idealize.ShloMosaic.Lib.ValueIdx

noncomputable section

namespace Cert.KernelIdeal.Arrays

open Cert.KernelIdeal Cert.KernelIdeal.Gen Cert.KernelIdeal.GenP Idealize.ShloMosaic Idealize.ShloMosaic.TcCoe Idealize.SL.Sem
open Idealize.ShloMosaic.ValueIdx Cert.Quantize
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The keypoint array as the region finds it. -/
abbrev pts (c : Dev nD) : Pts := V m c main_arg0

/-- The index maps, decided over the 32 points: every window's block index is the point's number on the batch axis
    and zero on the others, and the grid coordinate is the point's number. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ (grid0.coords t 0).val = t.val :=
  (by decide +kernel : ∀ t : Fin grid0.N, _)

theorem points : cfg0.N = 32 := N_0

/-- Row `r` of the block at point `t` is a batch. -/
theorem batch_lt (t : Fin cfg0.N) (r : Fin 16384) : t.val * 16384 + r.val < 524288 := by
  have h : t.val < 32 := lt_of_lt_of_eq t.isLt points
  have := r.isLt
  omega

/-- The input block at point `t`, at `(r, k, d)`, is the keypoint array at batch `t · 16384 + r`. -/
theorem block_at (c : Dev nD) (t : Fin cfg0.N) (r : Fin 16384) (k : Fin 17) (d : Fin 3) :
    (iblk m c 0 t : Vec Ideal S16384x17x3 .f32) (ix3 r k d)
      = pts m c (ix3 (⟨t.val * 16384 + r.val, batch_lt t r⟩ : Fin 524288) k d) := by
  obtain ⟨e0, e1, e2, -⟩ := block_index t
  unfold iblk
  rw [View.read_apply]
  show V m c main_arg0 _ = V m c main_arg0 _
  congr 1
  funext a
  apply Fin.ext
  match a with
  | ⟨0, _⟩ => show win0_0.index t (0 : Fin 3) * 16384 + 1 * r.val = t.val * 16384 + r.val; omega
  | ⟨1, _⟩ => show win0_0.index t (1 : Fin 3) * 17 + 1 * k.val = k.val; omega
  | ⟨2, _⟩ => show win0_0.index t (2 : Fin 3) * 3 + 1 * d.val = d.val; omega

/-! ## What each point writes back -/

/-- Through the planar window, point `t` writes back its rows of `Quantize.xy`. -/
theorem flushed_xy (c : Dev nD) (t : Fin cfg0.N) :
    (dats m 0 c).flushed 1 t = ((cfg0.win 1).blk t).view.read (Elt Ideal) (Quantize.xy (pts m c)) := by
  show (cfg0.win 1).cut (grid0.coords t) ((dats m 0 c).after 1 t) = _
  rw [after0_1]
  unfold out0_1
  rw [View.canon_unit_zero zeros3]
  simp only [View.ld_unit_zero (S := S16384x17x3) zeros3]
  obtain ⟨-, -, -, e0, e1, e2, -⟩ := block_index t
  funext j
  have hj0 : (j 0).val < 16384 := (j 0).isLt
  have hj1 : (j 1).val < 17 := (j 1).isLt
  have hj2 : (j 2).val < 2 := (j 2).isLt
  show k0_pay1 (F := Ideal) (iblk m c 0 t) j = Quantize.xy (pts m c) (((cfg0.win 1).blk t).view.emb j)
  have hj : j = ix3 (⟨(j 0).val, hj0⟩ : Fin 16384) (⟨(j 1).val, hj1⟩ : Fin 17) (⟨(j 2).val, hj2⟩ : Fin 2) :=
    funext fun a => match a with
      | ⟨0, _⟩ => rfl
      | ⟨1, _⟩ => rfl
      | ⟨2, _⟩ => rfl
  refine (congrArg (k0_pay1 (F := Ideal) (iblk m c 0 t)) hj).trans ?_
  refine (Body.stored_xy (iblk m c 0 t) _ _ _).trans ?_
  refine (congrArg clipXY (block_at m c t _ _ _)).trans ?_
  refine congrArg (fun i => clipXY (pts m c i)) ?_
  funext a
  apply Fin.ext
  match a with
  | ⟨0, _⟩ => show t.val * 16384 + (j 0).val = win0_1.index t (0 : Fin 3) * 16384 + 1 * (j 0).val; omega
  | ⟨1, _⟩ => show (j 1).val = win0_1.index t (1 : Fin 3) * 17 + 1 * (j 1).val; omega
  | ⟨2, _⟩ => show (j 2).val = win0_1.index t (2 : Fin 3) * 2 + 1 * (j 2).val; omega

/-- Through the depth window, point `t` writes back its rows of `Quantize.zGrid`. -/
theorem flushed_z (c : Dev nD) (t : Fin cfg0.N) :
    (dats m 0 c).flushed 2 t = ((cfg0.win 2).blk t).view.read (Elt Ideal) (Quantize.zGrid (pts m c)) := by
  show (cfg0.win 2).cut (grid0.coords t) ((dats m 0 c).after 2 t) = _
  rw [after0_2]
  unfold out0_2
  rw [View.canon_unit_zero zeros2]
  simp only [View.ld_unit_zero (S := S16384x17x3) zeros3]
  obtain ⟨-, -, -, -, -, -, e0, e1, -⟩ := block_index t
  funext j
  have hj0 : (j 0).val < 16384 := (j 0).isLt
  have hj1 : (j 1).val < 17 := (j 1).isLt
  show k0_pay2 (F := Ideal) (iblk m c 0 t) j = Quantize.zGrid (pts m c) (((cfg0.win 2).blk t).view.emb j)
  have hj : j = ix2 (⟨(j 0).val, hj0⟩ : Fin 16384) (⟨(j 1).val, hj1⟩ : Fin 17) :=
    funext fun a => match a with
      | ⟨0, _⟩ => rfl
      | ⟨1, _⟩ => rfl
  refine (congrArg (k0_pay2 (F := Ideal) (iblk m c 0 t)) hj).trans ?_
  refine (Body.stored_z (iblk m c 0 t) _ _).trans ?_
  refine (congrArg clipZ (block_at m c t _ _ _)).trans ?_
  refine congrArg (fun i => clipZ (pts m c i)) ?_
  funext a
  apply Fin.ext
  match a with
  | ⟨0, _⟩ => show t.val * 16384 + (j 0).val = win0_2.index t (0 : Fin 2) * 16384 + 1 * (j 0).val; omega
  | ⟨1, _⟩ => show (j 1).val = win0_2.index t (1 : Fin 2) * 17 + 1 * (j 1).val; omega
  | ⟨2, _⟩ => rfl

/-- Through the index window, point `t` writes back its rows of `Quantize.idxGrid`: the first column is the row's number
    in the block plus 16384 times the grid coordinate, which is the batch number. -/
theorem flushed_idx (c : Dev nD) (t : Fin cfg0.N) :
    (dats m 0 c).flushed 3 t = ((cfg0.win 3).blk t).view.read (Elt Ideal) (Quantize.idxGrid (pts m c)) := by
  show (cfg0.win 3).cut (grid0.coords t) ((dats m 0 c).after 3 t) = _
  rw [after0_3]
  unfold out0_3
  rw [View.canon_unit_zero zeros3]
  simp only [View.ld_unit_zero (S := S16384x17x3) zeros3]
  obtain ⟨-, -, -, -, -, -, -, -, e0, e1, e2, eg⟩ := block_index t
  funext j
  have hj0 : (j 0).val < 16384 := (j 0).isLt
  have hj1 : (j 1).val < 17 := (j 1).isLt
  have hj2 : (j 2).val < 3 := (j 2).isLt
  show k0_pay3 (F := Ideal) (grid0.coords t) (iblk m c 0 t) j = Quantize.idxGrid (pts m c) (((cfg0.win 3).blk t).view.emb j)
  by_cases hc : (j 2).val = 0
  · have hj : j = ix3 (⟨(j 0).val, hj0⟩ : Fin 16384) (⟨(j 1).val, hj1⟩ : Fin 17) (⟨0, by omega⟩ : Fin 3) :=
      funext fun a => match a with
        | ⟨0, _⟩ => rfl
        | ⟨1, _⟩ => rfl
        | ⟨2, _⟩ => Fin.ext hc
    refine (congrArg (k0_pay3 (F := Ideal) (grid0.coords t) (iblk m c 0 t)) hj).trans ?_
    refine (Body.stored_batch (grid0.coords t) (iblk m c 0 t) _ _).trans ?_
    refine Eq.trans ?_ (idxAt_batch (pts m c) _ _ _ (by
      show win0_3.index t (2 : Fin 3) * 3 + 1 * (j 2).val = 0; omega)).symm
    refine congrArg (BitVec.ofNat 32) ?_
    show (grid0.coords t 0).val * 16384 + (j 0).val = win0_3.index t (0 : Fin 3) * 16384 + 1 * (j 0).val
    omega
  · have hj : j = ix3 (⟨(j 0).val, hj0⟩ : Fin 16384) (⟨(j 1).val, hj1⟩ : Fin 17) (⟨(j 2).val - 1 + 1, by omega⟩ : Fin 3) :=
      funext fun a => match a with
        | ⟨0, _⟩ => rfl
        | ⟨1, _⟩ => rfl
        | ⟨2, _⟩ => Fin.ext (by show (j 2).val = (j 2).val - 1 + 1; omega)
    refine (congrArg (k0_pay3 (F := Ideal) (grid0.coords t) (iblk m c 0 t)) hj).trans ?_
    refine (Body.stored_cell (grid0.coords t) (iblk m c 0 t) _ _ (⟨(j 2).val - 1, by omega⟩ : Fin 2)).trans ?_
    refine (congrArg cell (block_at m c t _ _ _)).trans ?_
    refine Eq.trans ?_ (idxAt_cell (pts m c) _ _ _ (by
      show win0_3.index t (2 : Fin 3) * 3 + 1 * (j 2).val ≠ 0; omega)).symm
    refine congrArg (fun i => cell (pts m c i)) ?_
    funext a
    apply Fin.ext
    match a with
    | ⟨0, _⟩ => show t.val * 16384 + (j 0).val = win0_3.index t (0 : Fin 3) * 16384 + 1 * (j 0).val; omega
    | ⟨1, _⟩ => show (j 1).val = win0_3.index t (1 : Fin 3) * 17 + 1 * (j 1).val; omega
    | ⟨2, _⟩ => show (j 2).val - 1 = win0_3.index t (2 : Fin 3) * 3 + 1 * (j 2).val - 1; omega

/-! ## The blocks cover the arrays -/

/-- An index is in point `t`'s block of the planar array iff each coordinate is in the block's range. -/
theorem mem_block_xy (t : Fin cfg0.N) (i : S524288x17x2.Idx) :
    i ∈ ((cfg0.win 1).blk t).view.set ↔ ∀ a : Fin 3, win0_1.index t a * S16384x17x2.size a ≤ (i a).val
      ∧ (i a).val < win0_1.index t a * S16384x17x2.size a + S16384x17x2.size a := by
  show i ∈ ((View.whole main_v0_0).slice (win0_1.rect t)).set ↔ _
  rw [View.set_slice_whole, Rect.mem_set_unit]
  exact Iff.rfl

theorem mem_block_z (t : Fin cfg0.N) (i : S524288x17.Idx) :
    i ∈ ((cfg0.win 2).blk t).view.set ↔ ∀ a : Fin 2, win0_2.index t a * S16384x17.size a ≤ (i a).val
      ∧ (i a).val < win0_2.index t a * S16384x17.size a + S16384x17.size a := by
  show i ∈ ((View.whole main_v0_1).slice (win0_2.rect t)).set ↔ _
  rw [View.set_slice_whole, Rect.mem_set_unit]
  exact Iff.rfl

theorem mem_block_idx (t : Fin cfg0.N) (i : S524288x17x3.Idx) :
    i ∈ ((cfg0.win 3).blk t).view.set ↔ ∀ a : Fin 3, win0_3.index t a * S16384x17x3.size a ≤ (i a).val
      ∧ (i a).val < win0_3.index t a * S16384x17x3.size a + S16384x17x3.size a := by
  show i ∈ ((View.whole main_v0_2).slice (win0_3.rect t)).set ↔ _
  rw [View.set_slice_whole, Rect.mem_set_unit]
  exact Iff.rfl

/-- The point whose blocks hold batch `b`. -/
def pointOf (b : Nat) (hb : b < 524288) : Fin cfg0.N := ⟨b / 16384, lt_of_lt_of_eq (by omega : b / 16384 < 32) points.symm⟩

/-- Every index of the planar array is in the block of the point of its batch. -/
theorem cover_xy (i : S524288x17x2.Idx) :
    ∃ t : Fin cfg0.N, (cfg0.win 1).flush t = true ∧ i ∈ ((cfg0.win 1).blk t).view.set := by
  have h0 : (i 0).val < 524288 := (i 0).isLt
  have h1 : (i 1).val < 17 := (i 1).isLt
  have h2 : (i 2).val < 2 := (i 2).isLt
  obtain ⟨-, -, -, e0, e1, e2, -⟩ := block_index (pointOf (i 0).val h0)
  have ht : (pointOf (i 0).val h0).val = (i 0).val / 16384 := rfl
  refine ⟨pointOf (i 0).val h0, flush0_1 _, ?_⟩
  rw [mem_block_xy]
  intro a
  match a with
  | ⟨0, _⟩ =>
    show win0_1.index (pointOf (i 0).val h0) (0 : Fin 3) * 16384 ≤ (i 0).val
      ∧ (i 0).val < win0_1.index (pointOf (i 0).val h0) (0 : Fin 3) * 16384 + 16384
    omega
  | ⟨1, _⟩ =>
    show win0_1.index (pointOf (i 0).val h0) (1 : Fin 3) * 17 ≤ (i 1).val
      ∧ (i 1).val < win0_1.index (pointOf (i 0).val h0) (1 : Fin 3) * 17 + 17
    omega
  | ⟨2, _⟩ =>
    show win0_1.index (pointOf (i 0).val h0) (2 : Fin 3) * 2 ≤ (i 2).val
      ∧ (i 2).val < win0_1.index (pointOf (i 0).val h0) (2 : Fin 3) * 2 + 2
    omega

/-- Every index of the depth array is in the block of the point of its batch. -/
theorem cover_z (i : S524288x17.Idx) :
    ∃ t : Fin cfg0.N, (cfg0.win 2).flush t = true ∧ i ∈ ((cfg0.win 2).blk t).view.set := by
  have h0 : (i 0).val < 524288 := (i 0).isLt
  have h1 : (i 1).val < 17 := (i 1).isLt
  obtain ⟨-, -, -, -, -, -, e0, e1, -⟩ := block_index (pointOf (i 0).val h0)
  have ht : (pointOf (i 0).val h0).val = (i 0).val / 16384 := rfl
  refine ⟨pointOf (i 0).val h0, flush0_2 _, ?_⟩
  rw [mem_block_z]
  intro a
  match a with
  | ⟨0, _⟩ =>
    show win0_2.index (pointOf (i 0).val h0) (0 : Fin 2) * 16384 ≤ (i 0).val
      ∧ (i 0).val < win0_2.index (pointOf (i 0).val h0) (0 : Fin 2) * 16384 + 16384
    omega
  | ⟨1, _⟩ =>
    show win0_2.index (pointOf (i 0).val h0) (1 : Fin 2) * 17 ≤ (i 1).val
      ∧ (i 1).val < win0_2.index (pointOf (i 0).val h0) (1 : Fin 2) * 17 + 17
    omega

/-- Every index of the triples array is in the block of the point of its batch. -/
theorem cover_idx (i : S524288x17x3.Idx) :
    ∃ t : Fin cfg0.N, (cfg0.win 3).flush t = true ∧ i ∈ ((cfg0.win 3).blk t).view.set := by
  have h0 : (i 0).val < 524288 := (i 0).isLt
  have h1 : (i 1).val < 17 := (i 1).isLt
  have h2 : (i 2).val < 3 := (i 2).isLt
  obtain ⟨-, -, -, -, -, -, -, -, e0, e1, e2, -⟩ := block_index (pointOf (i 0).val h0)
  have ht : (pointOf (i 0).val h0).val = (i 0).val / 16384 := rfl
  refine ⟨pointOf (i 0).val h0, flush0_3 _, ?_⟩
  rw [mem_block_idx]
  intro a
  match a with
  | ⟨0, _⟩ =>
    show win0_3.index (pointOf (i 0).val h0) (0 : Fin 3) * 16384 ≤ (i 0).val
      ∧ (i 0).val < win0_3.index (pointOf (i 0).val h0) (0 : Fin 3) * 16384 + 16384
    omega
  | ⟨1, _⟩ =>
    show win0_3.index (pointOf (i 0).val h0) (1 : Fin 3) * 17 ≤ (i 1).val
      ∧ (i 1).val < win0_3.index (pointOf (i 0).val h0) (1 : Fin 3) * 17 + 17
    omega
  | ⟨2, _⟩ =>
    show win0_3.index (pointOf (i 0).val h0) (2 : Fin 3) * 3 ≤ (i 2).val
      ∧ (i 2).val < win0_3.index (pointOf (i 0).val h0) (2 : Fin 3) * 3 + 3
    omega

/-! ## The arrays when the region ends -/

theorem final_xy (c : Dev nD) : (dats m 0 c).arrAt 1 cfg0.N = Quantize.xy (pts m c) :=
  (dats m 0 c).arrAt_eq_of_cover 1 (Quantize.xy (pts m c)) (fun t _ => flushed_xy m c t) cover_xy

theorem final_z (c : Dev nD) : (dats m 0 c).arrAt 2 cfg0.N = Quantize.zGrid (pts m c) :=
  (dats m 0 c).arrAt_eq_of_cover 2 (Quantize.zGrid (pts m c)) (fun t _ => flushed_z m c t) cover_z

theorem final_idx (c : Dev nD) : (dats m 0 c).arrAt 3 cfg0.N = Quantize.idxGrid (pts m c) :=
  (dats m 0 c).arrAt_eq_of_cover 3 (Quantize.idxGrid (pts m c)) (fun t _ => flushed_idx m c t) cover_idx

/-! ## The two reshapes after the region -/

/-- What the lines after the region find in the depth window's array. -/
theorem region_z (c : Dev nD) :
    Pipeline.withArrays spec0 c (V0 m c) (fun w => (dats m 0 c).arrAt w cfg0.N) (Proc.devRef .tc main_v0_1)
      = Quantize.zGrid (pts m c) :=
  (Pipeline.withArrays_arr spec0 launch0.win.arr_inj c _ _ 2).trans (final_z m c)

/-- What they find in the triples window's array. -/
theorem region_idx (c : Dev nD) :
    Pipeline.withArrays spec0 c (V0 m c) (fun w => (dats m 0 c).arrAt w cfg0.N) (Proc.devRef .tc main_v0_2)
      = Quantize.idxGrid (pts m c) :=
  (Pipeline.withArrays_arr spec0 launch0.win.arr_inj c _ _ 3).trans (final_idx m c)

/-- The flattened depths: pair `p` is keypoint `p % 17` of batch `p / 17`. -/
theorem tail_z (c : Dev nD) :
    Pipeline.afterTail₀ cfgs (dats m) 0 (V0 m) [hostOps1] c main_v1 = Quantize.zFlat (pts m c) := by
  unfold Pipeline.afterTail₀
  show StableHlo.after hostOps1 _ (Proc.devRef .tc main_v1) = _
  after_results
  refine funext fun (i : S8912896.Idx) => ?_
  have h0 : (i 0).val < 8912896 := (i 0).isLt
  show shapeCast S8912896 (Pipeline.withArrays spec0 c (V0 m c) (fun w => (dats m 0 c).arrAt w cfg0.N)
    (Proc.devRef .tc main_v0_1)) shapeCasts_S524288x17_S8912896 i = _
  refine (congrArg (fun v : S524288x17.Idx → Ideal .f32 => shapeCast S8912896 v shapeCasts_S524288x17_S8912896 i)
    (region_z m c)).trans ?_
  refine (shapeCast_apply _ _ i (ix2 (⟨(i 0).val / 17, by omega⟩ : Fin 524288) (⟨(i 0).val % 17, Nat.mod_lt _ (by omega)⟩ : Fin 17)) (by
    rw [Shape.rowMajor_val_two, Shape.rowMajor_val_one]
    show (i 0).val / 17 * 17 + (i 0).val % 17 = (i 0).val
    omega)).trans ?_
  rfl

/-- The flattened triples: pair `p` is keypoint `p % 17` of batch `p / 17`, the three entries kept in order. -/
theorem tail_idx (c : Dev nD) :
    Pipeline.afterTail₀ cfgs (dats m) 0 (V0 m) [hostOps1] c main_v2 = Quantize.idxFlat (pts m c) := by
  unfold Pipeline.afterTail₀
  show StableHlo.after hostOps1 _ (Proc.devRef .tc main_v2) = _
  after_results
  refine funext fun (i : S8912896x3.Idx) => ?_
  have h0 : (i 0).val < 8912896 := (i 0).isLt
  have h1 : (i 1).val < 3 := (i 1).isLt
  show shapeCast S8912896x3 (Pipeline.withArrays spec0 c (V0 m c) (fun w => (dats m 0 c).arrAt w cfg0.N)
    (Proc.devRef .tc main_v0_2)) shapeCasts_S524288x17x3_S8912896x3 i = _
  refine (congrArg (fun v : S524288x17x3.Idx → BitVec 32 => shapeCast S8912896x3 v shapeCasts_S524288x17x3_S8912896x3 i)
    (region_idx m c)).trans ?_
  refine (shapeCast_apply _ _ i (ix3 (⟨(i 0).val / 17, by omega⟩ : Fin 524288) (⟨(i 0).val % 17, Nat.mod_lt _ (by omega)⟩ : Fin 17)
      (⟨(i 1).val, h1⟩ : Fin 3)) (by
    rw [Shape.rowMajor_val_three, Shape.rowMajor_val_two]
    show ((i 0).val / 17 * 17 + (i 0).val % 17) * 3 + (i 1).val = (i 0).val * 3 + (i 1).val
    omega)).trans ?_
  rfl

/-! ## The run, read -/

/-- Every weakly fair execution of the kernel's program ends with the planar result at `Quantize.xy`, the depth result
    at `Quantize.zFlat` and the index result at `Quantize.idxFlat` of the keypoint array, which is unchanged. -/
theorem run : θ_run defs (onTc (τ := τ) (main (F := Ideal))) ⟨m, fun _ => 0, ρ⟩ fun r => ∀ c : Dev nD,
      r.2.mem ((c.tc : Thread nD τ).loc main_v0_0) = Quantize.xy (m ((c.tc : Thread nD τ).loc main_arg0))
      ∧ r.2.mem ((c.tc : Thread nD τ).loc main_v1) = Quantize.zFlat (m ((c.tc : Thread nD τ).loc main_arg0))
      ∧ r.2.mem ((c.tc : Thread nD τ).loc main_v2) = Quantize.idxFlat (m ((c.tc : Thread nD τ).loc main_arg0))
      ∧ r.2.mem ((c.tc : Thread nD τ).loc main_arg0) = m ((c.tc : Thread nD τ).loc main_arg0) :=
  (θ_run defs _ _).mono (fun r h c =>
    ⟨((h c).1 1).trans (final_xy m c),
     ((h c).2 main_v1 (Pipeline.mem_restRefs_of main_v1 rfl (by decide))).trans (tail_z m c),
     ((h c).2 main_v2 (Pipeline.mem_restRefs_of main_v2 rfl (by decide))).trans (tail_idx m c),
     ((h c).1 0).trans (((dats m 0 c).arrAt_in 0 rfl _).trans ((A_eq m c 0).trans (V_main_arg0 m c)))⟩)
    (run_main m ρ)

end Cert.KernelIdeal.Arrays

end
-- ==== Proof.ReferenceReads.lean ====
/-
  The reference's three results are the functions of `Quantize`.

  Each result of the reference is read one operation at a time, outermost first, down to the keypoint array at an index:
    * the planar result clamps the slice of the first two coordinates: index `(b, k, d)` reads the array at `(b, k, d)`;
    * the depth result slices the third coordinate, flattens it (two reshapes), then clamps: pair `p` reads the array at
      `(p / 17, p % 17, 2)`;
    * the index result joins, along the last axis, the batch numbers (an iota over the batches, repeated for the 17
      keypoints, flattened, given a unit axis) and the flattened cells: at pair `p`, column 0 reads the iota at `p / 17`
      and column `d + 1` the cell of the array at `(p / 17, p % 17, d)`.
  The reference divides by the cell width with the host's division, which on the extended reals is the same quotient as
  the kernel's.
-/
import proofs.«179554_j80831284510871_1_alg».proof.Proof.Gen.ReferenceIdeal.Read
import proofs.«179554_j80831284510871_1_alg».proof.Proof.Quantize
import Idealize.ShloMosaic.Lib.Pipeline.Value
import Idealize.ShloMosaic.Lib.ValueIdx

noncomputable section

namespace Cert.ReferenceIdeal.Stages

open Cert.ReferenceIdeal Cert.ReferenceIdeal.Read Idealize.ShloMosaic Idealize.ShloMosaic.ValueIdx Cert.Quantize

/-- The planar result is `Quantize.xy`. -/
theorem planar (x : (⟨S524288x17x3, .f32⟩ : BufTy).Contents (Elt Ideal)) :
    val_main_v1 (F := Ideal) x = Quantize.xy x := by
  funext j
  rw [val_main_v1_apply, val_main_call0_v4_apply, val_main_call0_v3_apply, val_main_cst_0_apply,
    val_main_call0_v2_apply, val_main_call0_v1_apply, val_main_call0_v0_apply, val_main_cst_apply, val_main_v0_apply]
  have e : idx_main_v0 j = ix3 (⟨(j 0).val, (j 0).isLt⟩ : Fin 524288) (⟨(j 1).val, (j 1).isLt⟩ : Fin 17)
      (⟨(j 2).val, by have h : (j 2).val < 2 := (j 2).isLt; omega⟩ : Fin 3) :=
    funext fun a => match a with
      | ⟨0, _⟩ => rfl
      | ⟨1, _⟩ => rfl
      | ⟨2, _⟩ => rfl
  rw [e]
  rfl

/-- The depth result is `Quantize.zFlat`. -/
theorem depth (x : (⟨S524288x17x3, .f32⟩ : BufTy).Contents (Elt Ideal)) :
    val_main_v10 (F := Ideal) x = Quantize.zFlat x := by
  funext i
  rw [val_main_v10_apply, val_main_call1_v4_apply, val_main_call1_v3_apply, val_main_cst_4_apply,
    val_main_call1_v2_apply, val_main_call1_v1_apply, val_main_call1_v0_apply, val_main_cst_3_apply,
    val_main_v9_apply, val_main_v8_apply, val_main_v7_apply]
  have h0 : (i 0).val < 8912896 := (i 0).isLt
  have e : idx_main_v7 (idx_main_v8 (idx_main_v9 i))
      = ix3 (⟨(i 0).val / 17, by omega⟩ : Fin 524288) (⟨(i 0).val % 17, Nat.mod_lt _ (by omega)⟩ : Fin 17) (⟨2, by omega⟩ : Fin 3) := by
    funext a
    apply Fin.ext
    match a with
    | ⟨0, _⟩ => show ((i 0).val / 17 * 17 + (i 0).val % 17) / 17 = (i 0).val / 17; omega
    | ⟨1, _⟩ => show ((i 0).val / 17 * 17 + (i 0).val % 17) / 1 % 17 = (i 0).val % 17; omega
    | ⟨2, _⟩ => show 2 + 0 = 2; rfl
  rw [e]
  rfl

/-- The index result is `Quantize.idxFlat`. -/
theorem triples (x : (⟨S524288x17x3, .f32⟩ : BufTy).Contents (Elt Ideal)) :
    val_main_v16 (F := Ideal) x = Quantize.idxFlat x := by
  funext i
  have h0 : (i 0).val < 8912896 := (i 0).isLt
  have h1 : (i 1).val < 3 := (i 1).isLt
  unfold val_main_v16
  by_cases hc : (i 1).val = 0
  · -- the batch-number column
    refine (concatenate_pair_apply_left (t := S8912896x3) (s₁ := S8912896x1) (s₂ := S8912896x2) (1 : Fin 2) _ _ _ i rfl
      (ix2 (⟨(i 0).val, h0⟩ : Fin 8912896) (⟨0, Nat.one_pos⟩ : Fin 1)) (fun b => match b with
        | ⟨0, _⟩ => rfl
        | ⟨1, _⟩ => hc.symm)).trans ?_
    rw [val_main_v14_apply, val_main_v13_apply, val_main_v12_apply, val_main_v11_apply]
    unfold Quantize.idxFlat Quantize.idxAt
    rw [if_pos hc]
  · -- a cell column
    refine (concatenate_pair_apply_right (t := S8912896x3) (s₁ := S8912896x1) (s₂ := S8912896x2) (1 : Fin 2) _ _ _ i rfl rfl
      (ix2 (⟨(i 0).val, h0⟩ : Fin 8912896) (⟨(i 1).val - 1, by omega⟩ : Fin 2)) (fun b hb => match b, hb with
        | ⟨0, _⟩, _ => rfl
        | ⟨1, _⟩, hb => (hb (Fin.ext rfl)).elim) (by show (i 1).val - 1 + 1 = (i 1).val; omega)).trans ?_
    rw [val_main_v15_apply, val_main_v6_apply, val_main_v5_apply, val_main_v4_apply, val_main_cst_2_apply,
      val_main_v3_apply, val_main_v2_apply, val_main_cst_1_apply,
      val_main_v1_apply, val_main_call0_v4_apply, val_main_call0_v3_apply, val_main_cst_0_apply,
      val_main_call0_v2_apply, val_main_call0_v1_apply, val_main_call0_v0_apply, val_main_cst_apply, val_main_v0_apply]
    have e : idx_main_v0 (idx_main_v15 (ix2 (⟨(i 0).val, h0⟩ : Fin 8912896) (⟨(i 1).val - 1, by omega⟩ : Fin 2)))
        = ix3 (⟨(i 0).val / 17, by omega⟩ : Fin 524288) (⟨(i 0).val % 17, Nat.mod_lt _ (by omega)⟩ : Fin 17)
            (⟨(i 1).val - 1, by omega⟩ : Fin 3) := by
      funext a
      apply Fin.ext
      match a with
      | ⟨0, _⟩ => show ((i 0).val * 2 + ((i 1).val - 1)) / 34 = (i 0).val / 17; omega
      | ⟨1, _⟩ => show ((i 0).val * 2 + ((i 1).val - 1)) / 2 % 17 = (i 0).val % 17; omega
      | ⟨2, _⟩ => show ((i 0).val * 2 + ((i 1).val - 1)) % 2 = (i 1).val - 1; omega
    rw [e]
    unfold Quantize.idxFlat Quantize.idxAt
    rw [if_neg hc]
    rfl

end Cert.ReferenceIdeal.Stages

end
-- ==== Proof.lean ====
/-
  The certificate's five claims for the keypoint quantization kernel against its reference.

  Both programs take an array of 524288 × 17 keypoints (two planar coordinates and a depth) and return the planar
  coordinates clamped to [0, 504], the depths clamped to [0, 3.15…] and flattened to one per (batch, keypoint) pair, and
  per pair the triple (batch number, heat-map cell of the first coordinate, cell of the second), a cell being the clamped
  coordinate over the cell width 8, truncated. The kernel works on 32 blocks of 16384 batches and flattens afterwards;
  the reference works on the whole array and flattens before clamping. On the extended reals the two compute, index by
  index, the same three functions of the input (`Cert.Quantize`): the clamps and the quotient are the same operations
  with the same constants, so no law of arithmetic — and nothing about finiteness — is needed, only the bookkeeping of
  which input entry each output entry reads.

  The frames: each program terminates without fault with its argument unchanged. The idealized kernel is the kernel's
  own text read over the extended reals (no rewrite was applied), so the claim relating the two is trivial.
-/
import proofs.«179554_j80831284510871_1_alg».proof.Defs
import proofs.«179554_j80831284510871_1_alg».proof.Proof.Gen.Kernel
import proofs.«179554_j80831284510871_1_alg».proof.Proof.Gen.KernelIdeal
import proofs.«179554_j80831284510871_1_alg».proof.Proof.Gen.ReferenceIdeal
import proofs.«179554_j80831284510871_1_alg».proof.Proof.Gen.ReferenceIdeal.Run
import proofs.«179554_j80831284510871_1_alg».proof.Proof.Gen.ReferenceIdeal.Read
import proofs.«179554_j80831284510871_1_alg».proof.Proof.Gen.Pre_finite_inputs
import proofs.«179554_j80831284510871_1_alg».proof.Proof.KernelFrame
import proofs.«179554_j80831284510871_1_alg».proof.Proof.KernelIdealFrame
import proofs.«179554_j80831284510871_1_alg».proof.Proof.BlocksToArrays
import proofs.«179554_j80831284510871_1_alg».proof.Proof.ReferenceReads
import Idealize.ShloMosaic.Adequacy
import Idealize.ShloMosaic.Init

noncomputable section

namespace Cert.Proof

open Idealize.ShloMosaic Idealize.SL.Sem

/-- The kernel terminates without fault and leaves the keypoint array as it was. -/
theorem frame_kernel : Cert.frame_Kernel := fun m ρ _ => Cert.Kernel.GenP.frame m ρ

/-- So does the kernel read over the extended reals. -/
theorem frame_ideal : Cert.frame_KernelIdeal := fun m ρ _ => Cert.KernelIdeal.GenP.frame m ρ

/-- So does the reference: its run, with the three results forgotten. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- No operation of the kernel was rewritten for the reading over the extended reals. -/
theorem preserves : Cert.preserves_Kernel_KernelIdeal := trivial

/-- From memories that agree on the keypoint array both programs end with the same three results: the functions of
    `Cert.Quantize` of that array. -/
theorem algebraic : Cert.algebraic_KernelIdeal_ReferenceIdeal := by
  intro m ρ m' ρ' _ hagree
  refine ⟨fun c => Cert.Quantize.xy (m ((c.tc : Thread Cert.KernelIdeal.nD Cert.KernelIdeal.τ).loc Cert.KernelIdeal.main_arg0)),
    fun c => Cert.Quantize.zFlat (m ((c.tc : Thread Cert.KernelIdeal.nD Cert.KernelIdeal.τ).loc Cert.KernelIdeal.main_arg0)),
    fun c => Cert.Quantize.idxFlat (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ?_)
    (Cert.ReferenceIdeal.Value.run (F := Ideal) m' ρ')
  obtain ⟨hxy, hz, hidx, harg⟩ := h c
  exact ⟨hxy.trans ((Cert.ReferenceIdeal.Read.val_main_v1_eq _).trans
      ((Cert.ReferenceIdeal.Stages.planar _).trans (congrArg Cert.Quantize.xy (hagree c)))),
    hz.trans ((Cert.ReferenceIdeal.Read.val_main_v10_eq _).trans
      ((Cert.ReferenceIdeal.Stages.depth _).trans (congrArg Cert.Quantize.zFlat (hagree c)))),
    hidx.trans ((Cert.ReferenceIdeal.Read.val_main_v16_eq _).trans
      ((Cert.ReferenceIdeal.Stages.triples _).trans (congrArg Cert.Quantize.idxFlat (hagree c)))),
    harg⟩

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
